-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1024x512 : Shape := ⟨2, ![1024, 512]⟩
abbrev S512x512 : Shape := ⟨2, ![512, 512]⟩
abbrev S512 : Shape := ⟨1, ![512]⟩
abbrev S_ : Shape := ⟨0, ![]⟩

class Facts : Prop where
  bcast_S_S1024x512 : S_.BroadcastsInDim S1024x512 (![] : Fin 0 → Fin S1024x512.rank)
  reducesTo_S1024x512_S_d0_1 : S1024x512.ReducesTo [0, 1] S_
  h_S_ : 0 < S_.numel
  bcast_S_S512x512 : S_.BroadcastsInDim S512x512 (![] : Fin 0 → Fin S512x512.rank)
  reducesTo_S512x512_S_d0_1 : S512x512.ReducesTo [0, 1] S_
  bcast_S_S512 : S_.BroadcastsInDim S512 (![] : Fin 0 → Fin S512.rank)
  reducesTo_S512_S_d0 : S512.ReducesTo [0] S_

variable [Facts]

def fn {F : FTy → Type} [FloatOps F] (main_arg0 : FVec F S1024x512 .f32) (main_arg1 : FVec F S512x512 .f32) (main_arg2 : FVec F S512 .f32) : IVec S_ 1 :=
  let main_v0 : FVec F S1024x512 .f32 := Host.absf main_arg0
  let main_cst : FVec F S_ .f32 := constant S_ .f32 0x7F800000#32
  let main_v1 : FVec F S1024x512 .f32 := broadcastInDim S1024x512 ![] bcast_S_S1024x512 main_cst
  let main_v2 : IVec S1024x512 1 := cmpf .olt main_v0 main_v1
  let main_c : IVec S_ 1 := constantI S_ 1 1#1
  let main_v3 : IVec S_ 1 := (fun x v => Host.reduce IntOp.andi x v reducesTo_S1024x512_S_d0_1 h_S_) main_v2 main_c
  let main_v4 : FVec F S512x512 .f32 := Host.absf main_arg1
  let main_cst_0 : FVec F S_ .f32 := constant S_ .f32 0x7F800000#32
  let main_v5 : FVec F S512x512 .f32 := broadcastInDim S512x512 ![] bcast_S_S512x512 main_cst_0
  let main_v6 : IVec S512x512 1 := cmpf .olt main_v4 main_v5
  let main_c_1 : IVec S_ 1 := constantI S_ 1 1#1
  let main_v7 : IVec S_ 1 := (fun x v => Host.reduce IntOp.andi x v reducesTo_S512x512_S_d0_1 h_S_) main_v6 main_c_1
  let main_v8 : IVec S_ 1 := andi main_v3 main_v7
  let main_v9 : FVec F S512 .f32 := Host.absf main_arg2
  let main_cst_2 : FVec F S_ .f32 := constant S_ .f32 0x7F800000#32
  let main_v10 : FVec F S512 .f32 := broadcastInDim S512 ![] bcast_S_S512 main_cst_2
  let main_v11 : IVec S512 1 := cmpf .olt main_v9 main_v10
  let main_c_3 : IVec S_ 1 := constantI S_ 1 1#1
  let main_v12 : IVec S_ 1 := (fun x v => Host.reduce IntOp.andi x v reducesTo_S512_S_d0 h_S_) main_v11 main_c_3
  let main_v13 : IVec S_ 1 := andi main_v8 main_v12
  main_v13
-- ==== Kernel.lean ====
abbrev S1024x512 : Shape := ⟨2, ![1024, 512]⟩
abbrev S512x512 : Shape := ⟨2, ![512, 512]⟩
abbrev S512 : Shape := ⟨1, ![512]⟩
abbrev S128x512 : Shape := ⟨2, ![128, 512]⟩
abbrev S128x128 : Shape := ⟨2, ![128, 128]⟩
abbrev S8x512 : Shape := ⟨2, ![8, 512]⟩
abbrev S128x8x128 : Shape := ⟨3, ![128, 8, 128]⟩
abbrev S8x128 : Shape := ⟨2, ![8, 128]⟩
abbrev S128x1x128 : Shape := ⟨3, ![128, 1, 128]⟩
abbrev S1x8x128 : Shape := ⟨3, ![1, 8, 128]⟩
abbrev S128x8 : Shape := ⟨2, ![128, 8]⟩
abbrev S1x512 : Shape := ⟨2, ![1, 512]⟩
abbrev S1024 : Shape := ⟨1, ![1024]⟩
abbrev S1024x1 : Shape := ⟨2, ![1024, 1]⟩
abbrev S1 : Shape := ⟨1, ![1]⟩
abbrev S1x1 : Shape := ⟨2, ![1, 1]⟩

abbrev nBuf : Space → Nat
  | .hbm => 6
  | .vmem => 9
  | .smem => 0
  | _ => 0

abbrev bufTy : (tb : Table) → Fin (tcTables nBuf tb) → BufTy
  | .hbm, ⟨0, _⟩ => ⟨S1024x512, .f32⟩
  | .hbm, ⟨1, _⟩ => ⟨S512x512, .f32⟩
  | .hbm, ⟨2, _⟩ => ⟨S512, .f32⟩
  | .hbm, ⟨3, _⟩ => ⟨S1024x512, .f32⟩
  | .hbm, ⟨4, _⟩ => ⟨S1x512, .f32⟩
  | .hbm, ⟨5, _⟩ => ⟨S1024x512, .f32⟩
  | .local _ .vmem, ⟨0, _⟩ => ⟨S128x512, .f32⟩
  | .local _ .vmem, ⟨1, _⟩ => ⟨S128x512, .f32⟩
  | .local _ .vmem, ⟨2, _⟩ => ⟨S128x512, .f32⟩
  | .local _ .vmem, ⟨3, _⟩ => ⟨S128x512, .f32⟩
  | .local _ .vmem, ⟨4, _⟩ => ⟨S128x128, .f32⟩
  | .local _ .vmem, ⟨5, _⟩ => ⟨S128x128, .f32⟩
  | .local _ .vmem, ⟨6, _⟩ => ⟨S1024x512, .f32⟩
  | .local _ .vmem, ⟨7, _⟩ => ⟨S1x512, .f32⟩
  | .local _ .vmem, ⟨8, _⟩ => ⟨S1024x512, .f32⟩
  | _, _ => ⟨S1024x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg1_0 : Ref sig .tc := ⟨.vmem, 7, rfl⟩
abbrev cc1_stg2_0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem1_0 : DmaSem sig := 7
abbrev cc1_sem2_0 : DmaSem sig := 8

abbrev nD : Nat := 1
abbrev τ : Topo := Topo.v7x

variable {F : FTy → Type} [FloatOps F]

abbrev grid0 : Pipeline.Grid := ⟨2, ![8, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S128x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S128x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S128x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev grid1 : Pipeline.Grid := ⟨1, ![1], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 1 → Memref sig .tc .vmem S1024x512 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 1 → Memref sig .tc .vmem S1x512 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1024x512 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

class Facts₀ : Prop where
  inb_S128x512_S128x512_0_0 : ∀ a, (![0, 0] : Fin 2 → Nat) a + S128x512.size a ≤ S128x512.size a
  h_S128x512 : 0 < S128x512.numel
  inb_S128x512_S8x512_0_0 : ∀ a, (![0, 0] : Fin 2 → Nat) a + S8x512.size a ≤ S128x512.size a
  h_S8x512 : 0 < S8x512.numel
  slices_S128x512_o0_0_S128x128 : S128x512.Slices ![0, 0] S128x128
  slices_S8x512_o0_0_S8x128 : S8x512.Slices ![0, 0] S8x128
  shapeCasts_S128x128_S128x1x128 : S128x128.ShapeCasts S128x1x128
  shapeCasts_S8x128_S1x8x128 : S8x128.ShapeCasts S1x8x128
  broadcasts_S128x1x128_S128x8x128 : S128x1x128.Broadcasts S128x8x128
  broadcasts_S1x8x128_S128x8x128 : S1x8x128.Broadcasts S128x8x128
  slices_S128x512_o0_128_S128x128 : S128x512.Slices ![0, 128] S128x128
  slices_S8x512_o0_128_S8x128 : S8x512.Slices ![0, 128] S8x128
  slices_S128x512_o0_256_S128x128 : S128x512.Slices ![0, 256] S128x128
  slices_S8x512_o0_256_S8x128 : S8x512.Slices ![0, 256] S8x128
  slices_S128x512_o0_384_S128x128 : S128x512.Slices ![0, 384] S128x128
  slices_S8x512_o0_384_S8x128 : S8x512.Slices ![0, 384] S8x128
  reduces_S128x8x128_S128x8 : S128x8x128.Reduces [2] S128x8
  inb_S128x128_S128x8_0_0 : ∀ a, (![0, 0] : Fin 2 → Nat) a + S128x8.size a ≤ S128x128.size a
  h_S128x8 : 0 < S128x8.numel
  inb_S128x512_S8x512_8_0 : ∀ a, (![8, 0] : Fin 2 → Nat) a + S8x512.size a ≤ S128x512.size a
  inb_S128x128_S128x8_0_8 : ∀ a, (![0, 8] : Fin 2 → Nat) a + S128x8.size a ≤ S128x128.size a
  inb_S128x512_S8x512_16_0 : ∀ a, (![16, 0] : Fin 2 → Nat) a + S8x512.size a ≤ S128x512.size a
  inb_S128x128_S128x8_0_16 : ∀ a, (![0, 16] : Fin 2 → Nat) a + S128x8.size a ≤ S128x128.size a
  inb_S128x512_S8x512_24_0 : ∀ a, (![24, 0] : Fin 2 → Nat) a + S8x512.size a ≤ S128x512.size a
  inb_S128x128_S128x8_0_24 : ∀ a, (![0, 24] : Fin 2 → Nat) a + S128x8.size a ≤ S128x128.size a
  inb_S128x512_S8x512_32_0 : ∀ a, (![32, 0] : Fin 2 → Nat) a + S8x512.size a ≤ S128x512.size a
  inb_S128x128_S128x8_0_32 : ∀ a, (![0, 32] : Fin 2 → Nat) a + S128x8.size a ≤ S128x128.size a
  inb_S128x512_S8x512_40_0 : ∀ a, (![40, 0] : Fin 2 → Nat) a + S8x512.size a ≤ S128x512.size a
  inb_S128x128_S128x8_0_40 : ∀ a, (![0, 40] : Fin 2 → Nat) a + S128x8.size a ≤ S128x128.size a
  inb_S128x512_S8x512_48_0 : ∀ a, (![48, 0] : Fin 2 → Nat) a + S8x512.size a ≤ S128x512.size a
  inb_S128x128_S128x8_0_48 : ∀ a, (![0, 48] : Fin 2 → Nat) a + S128x8.size a ≤ S128x128.size a
  inb_S128x512_S8x512_56_0 : ∀ a, (![56, 0] : Fin 2 → Nat) a + S8x512.size a ≤ S128x512.size a
  inb_S128x128_S128x8_0_56 : ∀ a, (![0, 56] : Fin 2 → Nat) a + S128x8.size a ≤ S128x128.size a
  inb_S128x512_S8x512_64_0 : ∀ a, (![64, 0] : Fin 2 → Nat) a + S8x512.size a ≤ S128x512.size a
  inb_S128x128_S128x8_0_64 : ∀ a, (![0, 64] : Fin 2 → Nat) a + S128x8.size a ≤ S128x128.size a
  inb_S128x512_S8x512_72_0 : ∀ a, (![72, 0] : Fin 2 → Nat) a + S8x512.size a ≤ S128x512.size a
  inb_S128x128_S128x8_0_72 : ∀ a, (![0, 72] : Fin 2 → Nat) a + S128x8.size a ≤ S128x128.size a
  inb_S128x512_S8x512_80_0 : ∀ a, (![80, 0] : Fin 2 → Nat) a + S8x512.size a ≤ S128x512.size a
  inb_S128x128_S128x8_0_80 : ∀ a, (![0, 80] : Fin 2 → Nat) a + S128x8.size a ≤ S128x128.size a
  inb_S128x512_S8x512_88_0 : ∀ a, (![88, 0] : Fin 2 → Nat) a + S8x512.size a ≤ S128x512.size a
  inb_S128x128_S128x8_0_88 : ∀ a, (![0, 88] : Fin 2 → Nat) a + S128x8.size a ≤ S128x128.size a
  inb_S128x512_S8x512_96_0 : ∀ a, (![96, 0] : Fin 2 → Nat) a + S8x512.size a ≤ S128x512.size a
  inb_S128x128_S128x8_0_96 : ∀ a, (![0, 96] : Fin 2 → Nat) a + S128x8.size a ≤ S128x128.size a
  inb_S128x512_S8x512_104_0 : ∀ a, (![104, 0] : Fin 2 → Nat) a + S8x512.size a ≤ S128x512.size a
  inb_S128x128_S128x8_0_104 : ∀ a, (![0, 104] : Fin 2 → Nat) a + S128x8.size a ≤ S128x128.size a
  inb_S128x512_S8x512_112_0 : ∀ a, (![112, 0] : Fin 2 → Nat) a + S8x512.size a ≤ S128x512.size a
  inb_S128x128_S128x8_0_112 : ∀ a, (![0, 112] : Fin 2 → Nat) a + S128x8.size a ≤ S128x128.size a
  inb_S128x512_S8x512_120_0 : ∀ a, (![120, 0] : Fin 2 → Nat) a + S8x512.size a ≤ S128x512.size a
  inb_S128x128_S128x8_0_120 : ∀ a, (![0, 120] : Fin 2 → Nat) a + S128x8.size a ≤ S128x128.size a
  shapeCasts_S512_S1x512 : S512.ShapeCasts S1x512
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  reduces_S1024x512_S1024 : S1024x512.Reduces [1] S1024
  shapeCasts_S1024_S1024x1 : S1024.ShapeCasts S1024x1
  reduces_S1024x1_S1 : S1024x1.Reduces [0] S1
  shapeCasts_S1_S1x1 : S1.ShapeCasts S1x1
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x1_S1024x512 : S1x1.Broadcasts S1024x512
  broadcasts_S1x512_S1024x512 : S1x512.Broadcasts S1024x512
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x512.size a ≤ S1024x512.size a
  hwx0_0 : ∀ i : grid0.Coords, EltTy.bits .f32 = 32 ∨ (Rect.block (s := S1024x512) S128x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x512.size a ≤ S512x512.size a
  hwx0_1 : ∀ i : grid0.Coords, EltTy.bits .f32 = 32 ∨ (Rect.block (s := S512x512) S128x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S1024x512.size a
  hwx0_2 : ∀ i : grid0.Coords, EltTy.bits .f32 = 32 ∨ (Rect.block (s := S1024x512) S128x128.size (cc0_transform_2 i) (hinb0_2 i)).WholeWords (EltTy.packing .f32)
  hrank1 : 0 < grid1.rank
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S1024x512.size a ≤ S1024x512.size a
  hwx1_0 : ∀ i : grid1.Coords, EltTy.bits .f32 = 32 ∨ (Rect.block (s := S1024x512) S1024x512.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x512.size a ≤ S1x512.size a
  hwx1_1 : ∀ i : grid1.Coords, EltTy.bits .f32 = 32 ∨ (Rect.block (s := S1x512) S1x512.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1024x512.size a ≤ S1024x512.size a
  hwx1_2 : ∀ i : grid1.Coords, EltTy.bits .f32 = 32 ∨ (Rect.block (s := S1024x512) S1024x512.size (cc1_transform_2 i) (hinb1_2 i)).WholeWords (EltTy.packing .f32)

variable [Facts₀]

abbrev win0_0 : Pipeline.Window sig grid0 :=
  Pipeline.Window.ofSpec (Memref.whole main_arg0) S128x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S128x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v0) S1024x512.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpec (Memref.whole main_v1) S1x512.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v2) S1024x512.size cc1_transform_2 reads1_2 true true 1 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S1024x512 : Shape := ⟨2, ![1024, 512]⟩
abbrev S512x512 : Shape := ⟨2, ![512, 512]⟩
abbrev S512 : Shape := ⟨1, ![512]⟩
abbrev S1024x1x512 : Shape := ⟨3, ![1024, 1, 512]⟩
abbrev S1x512x512 : Shape := ⟨3, ![1, 512, 512]⟩
abbrev S1024x512x512 : Shape := ⟨3, ![1024, 512, 512]⟩
abbrev S_ : Shape := ⟨0, ![]⟩
abbrev S1x512 : Shape := ⟨2, ![1, 512]⟩

abbrev nBuf : Space → Nat
  | .hbm => 21
  | .vmem => 0
  | .smem => 0
  | _ => 0

abbrev bufTy : (tb : Table) → Fin (tcTables nBuf tb) → BufTy
  | .hbm, ⟨0, _⟩ => ⟨S1024x512, .f32⟩
  | .hbm, ⟨1, _⟩ => ⟨S512x512, .f32⟩
  | .hbm, ⟨2, _⟩ => ⟨S512, .f32⟩
  | .hbm, ⟨3, _⟩ => ⟨S1024x1x512, .f32⟩
  | .hbm, ⟨4, _⟩ => ⟨S1x512x512, .f32⟩
  | .hbm, ⟨5, _⟩ => ⟨S1024x512x512, .f32⟩
  | .hbm, ⟨6, _⟩ => ⟨S1024x512x512, .f32⟩
  | .hbm, ⟨7, _⟩ => ⟨S1024x512x512, .f32⟩
  | .hbm, ⟨8, _⟩ => ⟨S1024x512x512, .f32⟩
  | .hbm, ⟨9, _⟩ => ⟨S_, .f32⟩
  | .hbm, ⟨10, _⟩ => ⟨S1024x512, .f32⟩
  | .hbm, ⟨11, _⟩ => ⟨S1024x512, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S1024x512, .f32⟩
  | .hbm, ⟨17, _⟩ => ⟨S1024x512, .f32⟩
  | .hbm, ⟨18, _⟩ => ⟨S1x512, .f32⟩
  | .hbm, ⟨19, _⟩ => ⟨S1024x512, .f32⟩
  | .hbm, ⟨20, _⟩ => ⟨S1024x512, .f32⟩
  | _, _ => ⟨S1024x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst : Ref sig .tc := ⟨.hbm, 9, rfl⟩
abbrev main_v6 : Ref sig .tc := ⟨.hbm, 10, rfl⟩
abbrev main_v7 : Ref sig .tc := ⟨.hbm, 11, rfl⟩
abbrev main_cst_0 : Ref sig .tc := ⟨.hbm, 12, rfl⟩
abbrev main_v8 : Ref sig .tc := ⟨.hbm, 13, rfl⟩
abbrev main_cst_1 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩

abbrev nD : Nat := 1
abbrev τ : Topo := Topo.v7x

variable {F : FTy → Type} [FloatOps F]

class Facts₀ : Prop where
  bcast_S1024x512_S1024x1x512_0_2 : S1024x512.BroadcastsInDim S1024x1x512 (![0, 2] : Fin 2 → Fin S1024x1x512.rank)
  bcast_S512x512_S1x512x512_1_2 : S512x512.BroadcastsInDim S1x512x512 (![1, 2] : Fin 2 → Fin S1x512x512.rank)
  bcast_S1024x1x512_S1024x512x512_0_1_2 : S1024x1x512.BroadcastsInDim S1024x512x512 (![0, 1, 2] : Fin 3 → Fin S1024x512x512.rank)
  bcast_S1x512x512_S1024x512x512_0_1_2 : S1x512x512.BroadcastsInDim S1024x512x512 (![0, 1, 2] : Fin 3 → Fin S1024x512x512.rank)
  reducesTo_S1024x512x512_S1024x512_d2 : S1024x512x512.ReducesTo [2] S1024x512
  h_S_ : 0 < S_.numel
  reducesTo_S1024x512_S_d0_1 : S1024x512.ReducesTo [0, 1] S_
  bcast_S_S1024x512 : S_.BroadcastsInDim S1024x512 (![] : Fin 0 → Fin S1024x512.rank)
  bcast_S512_S1x512_1 : S512.BroadcastsInDim S1x512 (![1] : Fin 1 → Fin S1x512.rank)
  bcast_S1x512_S1024x512_0_1 : S1x512.BroadcastsInDim S1024x512 (![0, 1] : Fin 2 → Fin S1024x512.rank)

variable [Facts₀]

class Facts : Prop extends Facts₀ where

variable [Facts]
-- ==== Proof.LibBlockSum.lean ====
/-
  A finite sum taken in consecutive blocks.

  In any additive commutative monoid the sum of `f` over the first `J * K` naturals is the sum, over the `J`
  consecutive blocks of `K` naturals, of each block's own sum: `Σ_{s<J} Σ_{k<K} f (s·K + k) = Σ_{i<J·K} f i`.
  Only associativity, commutativity and the zero of `+` are used, so the statement holds on the extended reals with
  no finiteness assumption. A function on `Fin n` is carried to the naturals by extending it with zeros
  (`zeroExt`), which turns a `Fin`-indexed sum into a `Finset.range` sum and back.
-/
import Mathlib.Algebra.BigOperators.Fin
import Mathlib.Algebra.BigOperators.Group.Finset.Basic

namespace Cert.Lib.BlockSum

open Finset

variable {β : Type*} [AddCommMonoid β]

/-- The sum over the first `J * K` naturals, taken block by block: block `s` is `s·K, …, s·K + K - 1`. -/
theorem sum_range_blocks (J K : ℕ) (f : ℕ → β) :
    ∑ s ∈ range J, ∑ k ∈ range K, f (s * K + k) = ∑ i ∈ range (J * K), f i := by
  induction J with
  | zero => simp
  | succ J ih => rw [sum_range_succ, ih, Nat.succ_mul, sum_range_add]

/-- A function on `Fin n` extended to every natural by zero past `n`. -/
def zeroExt {n : ℕ} (f : Fin n → β) : ℕ → β := fun i => if h : i < n then f ⟨i, h⟩ else 0

/-- Below `n` the extension is the function. -/
theorem zeroExt_of_lt {n : ℕ} (f : Fin n → β) (i : ℕ) (h : i < n) : zeroExt f i = f ⟨i, h⟩ := dif_pos h

theorem zeroExt_val {n : ℕ} (f : Fin n → β) (i : Fin n) : zeroExt f i.val = f i := dif_pos i.isLt

/-- A `Fin n`-indexed sum is the sum of the extension over the first `n` naturals. -/
theorem sum_fin_eq_sum_range {n : ℕ} (f : Fin n → β) : ∑ i : Fin n, f i = ∑ i ∈ range n, zeroExt f i := by
  rw [Finset.sum_range]
  exact Finset.sum_congr rfl fun i _ => (zeroExt_val f i).symm

/-- The whole `Fin (J·K)`-indexed sum, block by block: block `s`'s sum runs over `k : Fin K` at position `s·K + k`. -/
theorem sum_fin_blocks {N : ℕ} (J K : ℕ) (hN : N = J * K) (f : Fin N → β) :
    ∑ s ∈ range J, ∑ k : Fin K, zeroExt f (s * K + k.val) = ∑ i : Fin N, f i := by
  subst hN
  rw [sum_fin_eq_sum_range f, ← sum_range_blocks]
  exact Finset.sum_congr rfl fun s _ => (Finset.sum_range fun k => zeroExt f (s * K + k)).symm

end Cert.Lib.BlockSum
-- ==== Proof.Distance.lean ====
/-
  The algebra of the L1 distance table, on the extended reals.

  For two rows `x, c` of 512 entries the distance is `∑ k, |x k − c k|`. Summed in four chunks of 128 lanes —
  a lane accumulator started at zero that takes one entry from each chunk, then a sum over the 128 lanes — it is
  the same number: the 512 terms are the same, only grouped otherwise, and the extended reals are a commutative
  monoid under `+` (no finiteness is needed). Subtracting a number from the zero word negates it.
-/
import Idealize.ShloMosaic.PureOps.Ideal.Laws
import Idealize.ShloMosaic.Lib.ValueIdx
import proofs.«167095_j31413390803001_2_alg».proof.Proof.LibBlockSum

noncomputable section

namespace Cert.Rbf

open Idealize.ShloMosaic Idealize.ShloMosaic.ValueIdx Finset Cert.Lib.BlockSum

/-- `|a − b|` on the extended reals. -/
def gap (a b : EReal) : EReal := FloatOps.absf (F := Ideal) (φ := .f32) (a - b)

/-- One lane's accumulator: started at the zero word, it takes the lane's entry of each of the four chunks in turn. -/
def laneAcc (f : Fin 512 → EReal) (l : Fin 128) : EReal :=
  (((Ideal.ofBits .f32 0x00000000#32 + f ⟨0 + l.val, by omega⟩) + f ⟨128 + l.val, by omega⟩)
    + f ⟨256 + l.val, by omega⟩) + f ⟨384 + l.val, by omega⟩

/-- The lane accumulators summed over the 128 lanes are the 512 terms summed in order. -/
theorem sum_laneAcc (f : Fin 512 → EReal) : ∑ l : Fin 128, laneAcc f l = ∑ k : Fin 512, f k := by
  rw [← sum_fin_blocks 4 128 rfl f]
  simp only [Finset.sum_range_succ, Finset.sum_range_zero, zero_add, ← Finset.sum_add_distrib]
  refine Finset.sum_congr rfl fun l _ => ?_
  unfold laneAcc
  rw [Ideal.ofBits_zero_f32, zero_add,
    ← zeroExt_of_lt f (0 + l.val) (by omega), ← zeroExt_of_lt f (128 + l.val) (by omega),
    ← zeroExt_of_lt f (256 + l.val) (by omega), ← zeroExt_of_lt f (384 + l.val) (by omega)]

/-- Subtracting from the zero word is negation. -/
theorem zero_word_sub (a : EReal) : Ideal.ofBits .f32 0x00000000#32 - a = -a := by
  rw [Ideal.ofBits_zero_f32, zero_sub]

end Cert.Rbf

end
-- ==== Proof.LibRank3Layout.lean ====
/-
  Rank-3 layouts read at an index given by coordinates, for any element type and any extents.

  A value that varies along only some of three axes is stored with unit extents on the others and then
  broadcast. Read at `(p, q, r)`:
  • a matrix `[a, c]` recast as `[a, 1, c]` is the matrix at `(p, r)`, and broadcast to `[a, b, c]` it is the
    same entry for every `q`;
  • a stack `[1, b, c]` broadcast to `[a, b, c]` is the one matrix at `(q, r)` for every `p`;
  • a vector `[c]` recast as `[1, 1, c]` and broadcast to `[a, b, c]` is the vector at `r` for every `(p, q)`.
  Each cast keeps the row-major position; each broadcast reads coordinate `0` on a unit axis.
-/
import Idealize.ShloMosaic.Lib.ValueLayout

namespace Cert.Lib.Rank3Layout

open Idealize.ShloMosaic Idealize.ShloMosaic.ValueIdx

variable {α : Type}

/-- An `[a, c]` array cast to `[a, 1, c]` reads, at `(i, u, j)`, the operand at `(i, j)`: the unit axis in the
    middle does not move the row-major position. -/
theorem shapeCast_ac_a1c_apply {a c : ℕ} (x : (⟨2, ![a, c]⟩ : Shape).Idx → α)
    (h : (⟨2, ![a, c]⟩ : Shape).ShapeCasts ⟨3, ![a, 1, c]⟩) (i : Fin a) (u : Fin 1) (j : Fin c) :
    shapeCast ⟨3, ![a, 1, c]⟩ x h (ix3 i u j) = x (ix2 i j) :=
  shapeCast_apply x h _ _ (by
    have hu : u.val = 0 := by omega
    rw [Shape.rowMajor_val_two, Shape.rowMajor_val_three]
    show i.val * c + j.val = (i.val * 1 + u.val) * c + j.val
    rw [hu, Nat.mul_one, Nat.add_zero])

/-- A `[c]` array cast to `[1, 1, c]` reads, at `(u, w, j)`, the operand at `j`. -/
theorem shapeCast_c_11c_apply {c : ℕ} (x : (⟨1, ![c]⟩ : Shape).Idx → α)
    (h : (⟨1, ![c]⟩ : Shape).ShapeCasts ⟨3, ![1, 1, c]⟩) (u w : Fin 1) (j : Fin c) :
    shapeCast ⟨3, ![1, 1, c]⟩ x h (ix3 u w j) = x (ix1 j) :=
  shapeCast_apply x h _ _ (by
    have hu : u.val = 0 := by omega
    have hw : w.val = 0 := by omega
    rw [Shape.rowMajor_val_one, Shape.rowMajor_val_three]
    show j.val = (u.val * 1 + w.val) * c + j.val
    simp only [hu, hw, Nat.zero_mul, Nat.add_zero, Nat.zero_add])

/-- An `[a, 1, c]` array broadcast to `[a, b, c]` reads, at `(p, q, r)`, the operand at `(p, 0, r)`. -/
theorem broadcastTo_a1c_abc_apply {a b c : ℕ} (x : (⟨3, ![a, 1, c]⟩ : Shape).Idx → α)
    (h : (⟨3, ![a, 1, c]⟩ : Shape).Broadcasts ⟨3, ![a, b, c]⟩) (p : Fin a) (q : Fin b) (r : Fin c) :
    broadcastTo ⟨3, ![a, b, c]⟩ x h (ix3 p q r) = x (ix3 p (0 : Fin 1) r) := by
  refine broadcastTo_apply x h (ix3 p q r) (ix3 p (0 : Fin 1) r) fun ax => ?_
  match ax with
  | ⟨0, _⟩ =>
    show p.val = if a = 1 then 0 else p.val
    split
    · have := p.isLt; omega
    · rfl
  | ⟨1, _⟩ => rfl
  | ⟨2, _⟩ =>
    show r.val = if c = 1 then 0 else r.val
    split
    · have := r.isLt; omega
    · rfl

/-- A `[1, b, c]` array broadcast to `[a, b, c]` reads, at `(p, q, r)`, the operand at `(0, q, r)`. -/
theorem broadcastTo_1bc_abc_apply {a b c : ℕ} (x : (⟨3, ![1, b, c]⟩ : Shape).Idx → α)
    (h : (⟨3, ![1, b, c]⟩ : Shape).Broadcasts ⟨3, ![a, b, c]⟩) (p : Fin a) (q : Fin b) (r : Fin c) :
    broadcastTo ⟨3, ![a, b, c]⟩ x h (ix3 p q r) = x (ix3 (0 : Fin 1) q r) := by
  refine broadcastTo_apply x h (ix3 p q r) (ix3 (0 : Fin 1) q r) fun ax => ?_
  match ax with
  | ⟨0, _⟩ => rfl
  | ⟨1, _⟩ =>
    show q.val = if b = 1 then 0 else q.val
    split
    · have := q.isLt; omega
    · rfl
  | ⟨2, _⟩ =>
    show r.val = if c = 1 then 0 else r.val
    split
    · have := r.isLt; omega
    · rfl

/-- A `[1, 1, c]` array broadcast to `[a, b, c]` reads, at `(p, q, r)`, the operand at `(0, 0, r)`. -/
theorem broadcastTo_11c_abc_apply {a b c : ℕ} (x : (⟨3, ![1, 1, c]⟩ : Shape).Idx → α)
    (h : (⟨3, ![1, 1, c]⟩ : Shape).Broadcasts ⟨3, ![a, b, c]⟩) (p : Fin a) (q : Fin b) (r : Fin c) :
    broadcastTo ⟨3, ![a, b, c]⟩ x h (ix3 p q r) = x (ix3 (0 : Fin 1) (0 : Fin 1) r) := by
  refine broadcastTo_apply x h (ix3 p q r) (ix3 (0 : Fin 1) (0 : Fin 1) r) fun ax => ?_
  match ax with
  | ⟨0, _⟩ => rfl
  | ⟨1, _⟩ => rfl
  | ⟨2, _⟩ =>
    show r.val = if c = 1 then 0 else r.val
    split
    · have := r.isLt; omega
    · rfl

/-- A matrix `[a, c]` laid along the first and last of three axes: recast `[a, 1, c]`, broadcast to `[a, b, c]`,
    read at `(p, q, r)`, it is the matrix at `(p, r)`. -/
theorem outer_rows_apply {a b c : ℕ} (x : (⟨2, ![a, c]⟩ : Shape).Idx → α)
    (h₁ : (⟨2, ![a, c]⟩ : Shape).ShapeCasts ⟨3, ![a, 1, c]⟩)
    (h₂ : (⟨3, ![a, 1, c]⟩ : Shape).Broadcasts ⟨3, ![a, b, c]⟩) (p : Fin a) (q : Fin b) (r : Fin c) :
    broadcastTo ⟨3, ![a, b, c]⟩ (shapeCast ⟨3, ![a, 1, c]⟩ x h₁) h₂ (ix3 p q r) = x (ix2 p r) :=
  (broadcastTo_a1c_abc_apply _ h₂ p q r).trans (shapeCast_ac_a1c_apply x h₁ p 0 r)

/-- A matrix `[b, c]` laid along the last two of three axes: recast `[1, b, c]`, broadcast to `[a, b, c]`, read
    at `(p, q, r)`, it is the matrix at `(q, r)`. -/
theorem inner_rows_apply {a b c : ℕ} (x : (⟨2, ![b, c]⟩ : Shape).Idx → α)
    (h₁ : (⟨2, ![b, c]⟩ : Shape).ShapeCasts ⟨3, ![1, b, c]⟩)
    (h₂ : (⟨3, ![1, b, c]⟩ : Shape).Broadcasts ⟨3, ![a, b, c]⟩) (p : Fin a) (q : Fin b) (r : Fin c) :
    broadcastTo ⟨3, ![a, b, c]⟩ (shapeCast ⟨3, ![1, b, c]⟩ x h₁) h₂ (ix3 p q r) = x (ix2 q r) :=
  (broadcastTo_1bc_abc_apply _ h₂ p q r).trans (shapeCast_ab_1ab_apply x h₁ 0 q r)

/-- A vector `[c]` laid along the last of three axes: recast `[1, 1, c]`, broadcast to `[a, b, c]`, read at
    `(p, q, r)`, it is the vector at `r`. -/
theorem lanes_apply {a b c : ℕ} (x : (⟨1, ![c]⟩ : Shape).Idx → α)
    (h₁ : (⟨1, ![c]⟩ : Shape).ShapeCasts ⟨3, ![1, 1, c]⟩)
    (h₂ : (⟨3, ![1, 1, c]⟩ : Shape).Broadcasts ⟨3, ![a, b, c]⟩) (p : Fin a) (q : Fin b) (r : Fin c) :
    broadcastTo ⟨3, ![a, b, c]⟩ (shapeCast ⟨3, ![1, 1, c]⟩ x h₁) h₂ (ix3 p q r) = x (ix1 r) :=
  (broadcastTo_11c_abc_apply _ h₂ p q r).trans (shapeCast_c_11c_apply x h₁ 0 0 r)

end Cert.Lib.Rank3Layout
-- ==== Proof.CdistChunk.lean ====
/-
  One chunk of the distance kernel's body, read at an index.

  The body holds a 128-row block of `x` and, per chunk, 8 rows of the centers' block. For each of the four lane
  groups `o = 0, 128, 256, 384` it lays the `x` rows along axes (0, 2) and the center rows along axes (1, 2) of a
  [128, 8, 128] array, subtracts, takes absolute values and adds into an accumulator started at zero; the lane
  axis is then summed. So the chunk's entry `(p, q)` is the sum over the 128 lanes of the lane accumulators of
  the gaps `|x(p, k) − c(q, k)|`, `k < 512`.
-/
import proofs.«167095_j31413390803001_2_alg».proof.Proof.Gen.KernelIdeal.Skeleton
import proofs.«167095_j31413390803001_2_alg».proof.Proof.Distance
import proofs.«167095_j31413390803001_2_alg».proof.Proof.LibRank3Layout
import Idealize.ShloMosaic.PureOps.Ideal.Laws
import Idealize.ShloMosaic.Lib.ValueLayout

noncomputable section

namespace Cert.KernelIdeal.Cdist

open Cert.KernelIdeal Cert.KernelIdeal.Gen Idealize.ShloMosaic Idealize.ShloMosaic.ValueIdx
open Cert.Lib.Rank3Layout Cert.Rbf

/-- The gaps between row `p` of one matrix of 512 columns and row `q` of another, entry by entry. -/
def gaps {n m : ℕ} (v0 : (⟨2, ![n, 512]⟩ : Shape).Idx → EReal) (v1 : (⟨2, ![m, 512]⟩ : Shape).Idx → EReal)
    (p : Fin n) (q : Fin m) : Fin 512 → EReal :=
  fun k => gap (v0 (ix2 p k)) (v1 (ix2 q k))

/-- One lane group's term at `(p, q, l)`: the gap at column `o + l`. -/
theorem term_apply (o : ℕ) (v0 : FVec Ideal S128x512 .f32) (v1 : FVec Ideal S8x512 .f32)
    (h0 : S128x512.Slices ![0, o] S128x128) (h1 : S8x512.Slices ![0, o] S8x128)
    (p : Fin 128) (q : Fin 8) (l : Fin 128) (ho : o + l.val < 512) :
    absf (subf
        (broadcastTo S128x8x128 (shapeCast S128x1x128 (extractStridedSlice S128x128 ![0, o] v0 h0) shapeCasts_S128x128_S128x1x128) broadcasts_S128x1x128_S128x8x128)
        (broadcastTo S128x8x128 (shapeCast S1x8x128 (extractStridedSlice S8x128 ![0, o] v1 h1) shapeCasts_S8x128_S1x8x128) broadcasts_S1x8x128_S128x8x128))
      (ix3 p q l) = gaps v0 v1 p q ⟨o + l.val, ho⟩ := by
  unfold gaps gap
  refine congrArg (FloatOps.absf (F := Ideal) (φ := .f32)) ?_
  refine congrArg₂ (· - ·) ?_ ?_
  · exact (outer_rows_apply _ shapeCasts_S128x128_S128x1x128 broadcasts_S128x1x128_S128x8x128 p q l).trans
      (slice2_axis1_eq o v0 h0 p l)
  · exact (inner_rows_apply _ shapeCasts_S8x128_S1x8x128 broadcasts_S1x8x128_S128x8x128 p q l).trans
      (slice2_axis1_eq o v1 h1 q l)

/-- The index the lane sum reads: the reduced index `(p, q)` with lane `l` put back on the last axis. -/
theorem lift_lane (p : Fin 128) (q : Fin 8) (l : Fin 128) :
    reduces_S128x8x128_S128x8.lift (ix2 p q) l = ix3 p q l := by
  funext a
  apply Fin.ext
  match a with
  | ⟨0, _⟩ => rfl
  | ⟨1, _⟩ => rfl
  | ⟨2, _⟩ => rfl

/-- THE CHUNK at `(p, q)`: the sum over the lanes of the lane accumulators of the gaps of rows `p` and `q`. -/
theorem chunk_apply (v0 : FVec Ideal S128x512 .f32) (v1 : FVec Ideal S8x512 .f32) (p : Fin 128) (q : Fin 8) :
    k0_pay2 (F := Ideal) v0 v1 (ix2 p q) = ∑ l : Fin 128, laneAcc (gaps v0 v1 p q) l := by
  unfold k0_pay2
  refine (Ideal.multiReduction_add_single _ 0x00000000#32 reduces_S128x8x128_S128x8 _ _ (ix2 p q)).trans ?_
  refine Finset.sum_congr rfl fun (l : Fin 128) _ => ?_
  rw [lift_lane p q l]
  unfold laneAcc
  exact congrArg₂ (· + ·) (congrArg₂ (· + ·) (congrArg₂ (· + ·) (congrArg₂ (· + ·) rfl
    (term_apply 0 v0 v1 _ _ p q l _)) (term_apply 128 v0 v1 _ _ p q l _)) (term_apply 256 v0 v1 _ _ p q l _))
    (term_apply 384 v0 v1 _ _ p q l _)

end Cert.KernelIdeal.Cdist

end
-- ==== Proof.CdistBlock.lean ====
/-
  What the distance kernel's body leaves in its [128, 128] output block, entry by entry.

  The body stores sixteen [128, 8] pieces, piece `j` into columns `8j … 8j+7`, each the chunk computed from the
  whole `x` block and rows `8j … 8j+7` of the centers' block. Entry `(p, q)` of piece `j` is therefore the L1
  distance between row `p` of the `x` block and row `8j + q` of the centers' block, so entry `(r, c)` of the
  block is the distance between row `r` of the one and row `c` of the other: the four lane groups summed lane
  by lane are the 512 gaps summed in order.
-/
import proofs.«167095_j31413390803001_2_alg».proof.Proof.Gen.KernelIdeal.Frame
import proofs.«167095_j31413390803001_2_alg».proof.Proof.CdistChunk

noncomputable section

namespace Cert.KernelIdeal.Cdist

open Cert.KernelIdeal Cert.KernelIdeal.Gen Idealize.ShloMosaic Idealize.ShloMosaic.ValueIdx Cert.Rbf

/-- Rows read through rectangles: the `x` block whole, and eight rows of the centers' block from row `o`. The
    gaps of local rows `p` and `q` are the gaps of rows `p` and `o + q` of the blocks. -/
theorem gaps_ld (x0 x1 : Vec Ideal S128x512 .f32) (o : ℕ)
    (inb0 : ∀ a, (![0, 0] : Fin 2 → ℕ) a + S128x512.size a ≤ S128x512.size a)
    (inb1 : ∀ a, (![o, 0] : Fin 2 → ℕ) a + S8x512.size a ≤ S128x512.size a)
    (p : Fin 128) (q : Fin 8) (ho : o + q.val < 128) :
    gaps (n := 128) (m := 8) (View.ld (Val := Elt Ideal) (e' := .f32) x0 (Rect.unit ![0, 0] S128x512.size inb0))
        (View.ld (Val := Elt Ideal) (e' := .f32) x1 (Rect.unit ![o, 0] S8x512.size inb1)) p q
      = gaps (n := 128) (m := 128) x0 x1 p ⟨o + q.val, ho⟩ := by
  funext k
  unfold gaps
  refine congrArg₂ gap (congrArg x0 ?_) (congrArg x1 ?_)
  · funext a
    apply Fin.ext
    match a with
    | ⟨0, _⟩ => show 0 + 1 * p.val = p.val; omega
    | ⟨1, _⟩ => show 0 + 1 * k.val = k.val; omega
  · funext a
    apply Fin.ext
    match a with
    | ⟨0, _⟩ => show o + 1 * q.val = o + q.val; omega
    | ⟨1, _⟩ => show 0 + 1 * k.val = k.val; omega

/-- THE BLOCK: entry `(r, c)` is the L1 distance between row `r` of the first block and row `c` of the second. -/
def blockG (x0 x1 : Vec Ideal S128x512 .f32) : S128x128.Idx → EReal := fun y =>
  ∑ k : Fin 512, gaps (n := 128) (m := 128) x0 x1 (⟨(y 0).val, idx2_lt0 y⟩ : Fin 128) (⟨(y 1).val, idx2_lt1 y⟩ : Fin 128) k

/-- The piece stored into columns `o … o+7` agrees with the block function on its rectangle. -/
theorem piece_agrees (x0 x1 : Vec Ideal S128x512 .f32) (o : ℕ) (ho : o + 8 ≤ 128)
    (inb0 : ∀ a, (![0, 0] : Fin 2 → ℕ) a + S128x512.size a ≤ S128x512.size a)
    (inb1 : ∀ a, (![o, 0] : Fin 2 → ℕ) a + S8x512.size a ≤ S128x512.size a)
    (inbr : ∀ a, (![0, o] : Fin 2 → ℕ) a + S128x8.size a ≤ S128x128.size a) (x : S128x8.Idx) :
    k0_pay2 (F := Ideal) (View.ld (Val := Elt Ideal) (e' := .f32) x0 (Rect.unit ![0, 0] S128x512.size inb0))
        (View.ld (Val := Elt Ideal) (e' := .f32) x1 (Rect.unit ![o, 0] S8x512.size inb1)) x
      = blockG x0 x1 ((Rect.unit (s := S128x128) ![0, o] S128x8.size inbr).emb x) := by
  obtain ⟨p, q, rfl⟩ : ∃ (p : Fin 128) (q : Fin 8), x = ix2 p q := ⟨x 0, x 1, eq_ix2 x⟩
  refine (chunk_apply _ _ p q).trans ((sum_laneAcc _).trans ?_)
  unfold blockG
  refine Finset.sum_congr rfl fun k _ => ?_
  rw [gaps_ld x0 x1 o inb0 inb1 p q (by have := q.isLt; omega)]
  refine congrArg₂ (fun a b => gaps (n := 128) (m := 128) x0 x1 a b k) (Fin.ext ?_) (Fin.ext ?_)
  · show p.val = 0 + 1 * p.val; omega
  · show o + q.val = o + 1 * q.val; omega

/-- What the body leaves in the output block is the block function of its two input blocks. -/
theorem block_eq (x0 x1 : Vec Ideal S128x512 .f32) : out0_2 (F := Ideal) x0 x1 = blockG x0 x1 := by
  funext y
  unfold out0_2
  refine View.canon_apply_of_pieces (Val := Elt Ideal) (e := .f32) (blockG x0 x1) _ ?_ y (cover0_2 _ _ _ _ _ _ _ _ _ _ _ _ _ _ _ _ y)
  intro pc hpc
  simp only [List.mem_cons, List.not_mem_nil, or_false] at hpc
  rcases hpc with rfl | rfl | rfl | rfl | rfl | rfl | rfl | rfl | rfl | rfl | rfl | rfl | rfl | rfl | rfl | rfl
  · exact piece_agrees x0 x1 120 (by omega) Facts₀.inb_S128x512_S128x512_0_0 Facts₀.inb_S128x512_S8x512_120_0 Facts₀.inb_S128x128_S128x8_0_120
  · exact piece_agrees x0 x1 112 (by omega) Facts₀.inb_S128x512_S128x512_0_0 Facts₀.inb_S128x512_S8x512_112_0 Facts₀.inb_S128x128_S128x8_0_112
  · exact piece_agrees x0 x1 104 (by omega) Facts₀.inb_S128x512_S128x512_0_0 Facts₀.inb_S128x512_S8x512_104_0 Facts₀.inb_S128x128_S128x8_0_104
  · exact piece_agrees x0 x1 96 (by omega) Facts₀.inb_S128x512_S128x512_0_0 Facts₀.inb_S128x512_S8x512_96_0 Facts₀.inb_S128x128_S128x8_0_96
  · exact piece_agrees x0 x1 88 (by omega) Facts₀.inb_S128x512_S128x512_0_0 Facts₀.inb_S128x512_S8x512_88_0 Facts₀.inb_S128x128_S128x8_0_88
  · exact piece_agrees x0 x1 80 (by omega) Facts₀.inb_S128x512_S128x512_0_0 Facts₀.inb_S128x512_S8x512_80_0 Facts₀.inb_S128x128_S128x8_0_80
  · exact piece_agrees x0 x1 72 (by omega) Facts₀.inb_S128x512_S128x512_0_0 Facts₀.inb_S128x512_S8x512_72_0 Facts₀.inb_S128x128_S128x8_0_72
  · exact piece_agrees x0 x1 64 (by omega) Facts₀.inb_S128x512_S128x512_0_0 Facts₀.inb_S128x512_S8x512_64_0 Facts₀.inb_S128x128_S128x8_0_64
  · exact piece_agrees x0 x1 56 (by omega) Facts₀.inb_S128x512_S128x512_0_0 Facts₀.inb_S128x512_S8x512_56_0 Facts₀.inb_S128x128_S128x8_0_56
  · exact piece_agrees x0 x1 48 (by omega) Facts₀.inb_S128x512_S128x512_0_0 Facts₀.inb_S128x512_S8x512_48_0 Facts₀.inb_S128x128_S128x8_0_48
  · exact piece_agrees x0 x1 40 (by omega) Facts₀.inb_S128x512_S128x512_0_0 Facts₀.inb_S128x512_S8x512_40_0 Facts₀.inb_S128x128_S128x8_0_40
  · exact piece_agrees x0 x1 32 (by omega) Facts₀.inb_S128x512_S128x512_0_0 Facts₀.inb_S128x512_S8x512_32_0 Facts₀.inb_S128x128_S128x8_0_32
  · exact piece_agrees x0 x1 24 (by omega) Facts₀.inb_S128x512_S128x512_0_0 Facts₀.inb_S128x512_S8x512_24_0 Facts₀.inb_S128x128_S128x8_0_24
  · exact piece_agrees x0 x1 16 (by omega) Facts₀.inb_S128x512_S128x512_0_0 Facts₀.inb_S128x512_S8x512_16_0 Facts₀.inb_S128x128_S128x8_0_16
  · exact piece_agrees x0 x1 8 (by omega) Facts₀.inb_S128x512_S128x512_0_0 Facts₀.inb_S128x512_S8x512_8_0 Facts₀.inb_S128x128_S128x8_0_8
  · exact piece_agrees x0 x1 0 (by omega) Facts₀.inb_S128x512_S128x512_0_0 Facts₀.inb_S128x512_S8x512_0_0 Facts₀.inb_S128x128_S128x8_0_0

end Cert.KernelIdeal.Cdist

end
-- ==== Proof.Table.lean ====
/-
  The specification: the result as one function of the three argument arrays.

  For `x : [1024, 512]`, centers `c : [512, 512]` and `β : [512]`, the distance table is
  `sim (r, o) = ∑ k, |x (r, k) − c (o, k)|`, its peak is the greatest entry of the table (over the floor `−∞`), and
  the result is `out (r, o) = β o · (−sim (r, o) + peak · w)` with `w` the weight's word.
-/
import proofs.«167095_j31413390803001_2_alg».proof.Proof.Distance

noncomputable section

namespace Cert.Rbf

open Idealize.ShloMosaic Idealize.ShloMosaic.ValueIdx

/-- The L1 distance table of the rows of `X` against the rows of `C`. -/
def simG (X : (⟨2, ![1024, 512]⟩ : Shape).Idx → EReal) (C : (⟨2, ![512, 512]⟩ : Shape).Idx → EReal) :
    (⟨2, ![1024, 512]⟩ : Shape).Idx → EReal :=
  fun i => ∑ k : Fin 512, gap (X (ix2 (⟨(i 0).val, idx2_lt0 i⟩ : Fin 1024) k)) (C (ix2 (⟨(i 1).val, idx2_lt1 i⟩ : Fin 512) k))

/-- The greatest entry of a table, over the floor `−∞` (the word `0xFF800000`). -/
def peak (S : (⟨2, ![1024, 512]⟩ : Shape).Idx → EReal) : EReal :=
  (Finset.univ : Finset (⟨2, ![1024, 512]⟩ : Shape).Idx).fold max (Ideal.ofBits .f32 0xFF800000#32) S

/-- A table negated, shifted by its weighted peak and scaled column by column. -/
def finish (S : (⟨2, ![1024, 512]⟩ : Shape).Idx → EReal) (B : (⟨1, ![512]⟩ : Shape).Idx → EReal) :
    (⟨2, ![1024, 512]⟩ : Shape).Idx → EReal :=
  fun i => B (ix1 (⟨(i 1).val, idx2_lt1 i⟩ : Fin 512)) * (-(S i) + peak S * Ideal.ofBits .f32 0x3F8020C5#32)

/-- THE RESULT as one function of the argument arrays. -/
def outG (X : (⟨2, ![1024, 512]⟩ : Shape).Idx → EReal) (C : (⟨2, ![512, 512]⟩ : Shape).Idx → EReal)
    (B : (⟨1, ![512]⟩ : Shape).Idx → EReal) : (⟨2, ![1024, 512]⟩ : Shape).Idx → EReal :=
  finish (simG X C) B

end Cert.Rbf

end
-- ==== Proof.CdistArray.lean ====
/-
  From blocks to the array: what the distance kernel's region leaves in its output array.

  The grid is 8 × 4. At point `(i, j)` the kernel reads rows `128 i … 128 i + 127` of `x` and rows
  `128 j … 128 j + 127` of the centers, and writes block `(i, j)` of the [1024, 512] table. The block's entry
  `(r, c)` is the distance between its two rows, which are rows `128 i + r` and `128 j + c` of the arrays: the
  block is the table's. The 32 blocks tile the table, so after the region the array is the distance table of
  the two arrays as the region found them.
-/
import proofs.«167095_j31413390803001_2_alg».proof.Proof.CdistBlock
import proofs.«167095_j31413390803001_2_alg».proof.Proof.Table
import Idealize.ShloMosaic.Lib.Pipeline.Value

set_option maxRecDepth 16384

noncomputable section

namespace Cert.KernelIdeal.Cdist

open Cert.KernelIdeal Cert.KernelIdeal.Gen Idealize.ShloMosaic Idealize.ShloMosaic.TcCoe Idealize.ShloMosaic.ValueIdx
open Idealize.SL.Sem Cert.Rbf
open Idealize.ShloMosaic.Pipeline (Dat)

variable (V : (c : Dev nD) → (b : Ref sig .tc) → Buf (Elt Ideal) ((c : Thread nD τ).loc b))

/-- The printed index maps over the grid: the `x` window moves with the output's row block and the centers'
    window with its column block; neither moves along the columns of its own array. -/
theorem idx_facts : ∀ t : Fin cfg0.N, win0_0.index t (0 : Fin 2) = win0_2.index t (0 : Fin 2)
    ∧ win0_0.index t (1 : Fin 2) = 0
    ∧ win0_1.index t (0 : Fin 2) = win0_2.index t (1 : Fin 2)
    ∧ win0_1.index t (1 : Fin 2) = 0
    ∧ win0_2.index t (0 : Fin 2) ≤ 7 ∧ win0_2.index t (1 : Fin 2) ≤ 3 :=
  (by decide +kernel : ∀ t : Fin grid0.N, _)

/-- Every block of the table is some point's. -/
theorem idx_onto : ∀ (q0 : Fin 8) (q1 : Fin 4), ∃ t : Fin cfg0.N, win0_2.index t = ![q0.val, q1.val] :=
  (by decide +kernel : ∀ (q0 : Fin 8) (q1 : Fin 4), ∃ t : Fin grid0.N, win0_2.index t = ![q0.val, q1.val])

/-- WHAT POINT `t` WRITES BACK is block `t` of the distance table of the arrays the region finds. -/
theorem flushed_eq (c : Dev nD) (t : Fin cfg0.N) :
    (dat0 (F := Ideal) V c).flushed 2 t
      = ((cfg0.win 2).blk t).view.read (Elt Ideal) (simG (V c main_arg0) (V c main_arg1)) := by
  show (cfg0.win 2).cut (grid0.coords t) ((dat0 V c).after 2 t) = _
  rw [after0_2, block_eq]
  obtain ⟨e0, e1, e2, e3, e4, e5⟩ := idx_facts t
  funext j
  show blockG (iblk0 V c 0 t) (iblk0 V c 1 t) j = simG (V c main_arg0) (V c main_arg1) (((cfg0.win 2).blk t).view.emb j)
  unfold blockG simG gaps
  refine Finset.sum_congr rfl fun k _ => congrArg₂ gap ?_ ?_
  · show V c main_arg0 (((cfg0.win 0).blk t).view.emb (ix2 (⟨(j 0).val, idx2_lt0 j⟩ : Fin 128) k)) = V c main_arg0 _
    refine congrArg (V c main_arg0) ?_
    funext a
    apply Fin.ext
    match a with
    | ⟨0, _⟩ => show win0_0.index t (0 : Fin 2) * 128 + 1 * (j 0).val = win0_2.index t (0 : Fin 2) * 128 + 1 * (j 0).val; omega
    | ⟨1, _⟩ => show win0_0.index t (1 : Fin 2) * 512 + 1 * k.val = k.val; omega
  · show V c main_arg1 (((cfg0.win 1).blk t).view.emb (ix2 (⟨(j 1).val, idx2_lt1 j⟩ : Fin 128) k)) = V c main_arg1 _
    refine congrArg (V c main_arg1) ?_
    funext a
    apply Fin.ext
    match a with
    | ⟨0, _⟩ => show win0_1.index t (0 : Fin 2) * 128 + 1 * (j 1).val = win0_2.index t (1 : Fin 2) * 128 + 1 * (j 1).val; omega
    | ⟨1, _⟩ => show win0_1.index t (1 : Fin 2) * 512 + 1 * k.val = k.val; omega

/-- An index of the table is in point `t`'s block iff each coordinate is in the block's range on its axis. -/
theorem mem_blk (t : Fin cfg0.N) (i : S1024x512.Idx) :
    i ∈ ((cfg0.win 2).blk t).view.set ↔ ∀ a : Fin 2, win0_2.index t a * S128x128.size a ≤ (i a).val
      ∧ (i a).val < win0_2.index t a * S128x128.size a + S128x128.size a := by
  show i ∈ ((View.whole main_v0).slice (win0_2.rect t)).set ↔ _
  rw [View.set_slice_whole, Rect.mem_set_unit]
  exact Iff.rfl

/-- The blocks tile the table: entry `(r, o)` lies in the block of the point whose block indices are `(r / 128, o / 128)`. -/
theorem covered (i : S1024x512.Idx) :
    ∃ t : Fin cfg0.N, (cfg0.win 2).flush t = true ∧ i ∈ ((cfg0.win 2).blk t).view.set := by
  have hi0 : (i 0).val < 1024 := (i 0).isLt
  have hi1 : (i 1).val < 512 := (i 1).isLt
  obtain ⟨t, ht⟩ := idx_onto ⟨(i 0).val / 128, by omega⟩ ⟨(i 1).val / 128, by omega⟩
  have q0 : win0_2.index t (0 : Fin 2) = (i 0).val / 128 := congrFun ht 0
  have q1 : win0_2.index t (1 : Fin 2) = (i 1).val / 128 := congrFun ht 1
  refine ⟨t, flush0_2 t, ?_⟩
  rw [mem_blk]
  intro a
  match a with
  | ⟨0, _⟩ => show win0_2.index t (0 : Fin 2) * 128 ≤ (i 0).val ∧ (i 0).val < win0_2.index t (0 : Fin 2) * 128 + 128; omega
  | ⟨1, _⟩ => show win0_2.index t (1 : Fin 2) * 128 ≤ (i 1).val ∧ (i 1).val < win0_2.index t (1 : Fin 2) * 128 + 128; omega

/-- THE TABLE after the region: the distance table of the two arrays as the region found them. -/
theorem table_eq (c : Dev nD) :
    (dat0 (F := Ideal) V c).arrAt 2 cfg0.N = simG (V c main_arg0) (V c main_arg1) :=
  (dat0 V c).arrAt_eq_of_cover 2 _ (fun t _ => flushed_eq V c t) covered

end Cert.KernelIdeal.Cdist

end
-- ==== Proof.LibColumnLayout.lean ====
/-
  Column forms of three layout operations, read at an index: a vector of `a` entries stood up as an `[a, 1]` column, an
  `[a, 1]` column laid down as a `[1, a]` row (both keep the row-major order, so entry `i` stays entry `i`), and an
  `[a, 1]` column broadcast along its unit axis to `[a, b]` (row `p` is `b` copies of the column's entry `p`).
-/
import Idealize.ShloMosaic.Lib.Pipeline.Value
import Idealize.ShloMosaic.Lib.ValueIdx

namespace Cert.ColumnLayout

open Idealize.ShloMosaic Idealize.ShloMosaic.ValueIdx

variable {α : Type}

/-- An `[a]` array cast to `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column cast to a `[1, a]` row reads, at `(u, i)`, the column's entry `i`. -/
theorem shapeCast_a1_1a_apply {a : ℕ} (x : (⟨2, ![a, 1]⟩ : Shape).Idx → α) (h : (⟨2, ![a, 1]⟩ : Shape).ShapeCasts ⟨2, ![1, a]⟩)
    (u : Fin 1) (i : Fin a) : shapeCast ⟨2, ![1, a]⟩ x h (ix2 u i) = x (ix2 i (0 : Fin 1)) :=
  shapeCast_apply x h _ _ (by
    have hu : u.val = 0 := by omega
    rw [Shape.rowMajor_val_two, Shape.rowMajor_val_two]
    show i.val * 1 + 0 = u.val * a + i.val
    rw [hu, Nat.zero_mul, Nat.zero_add, Nat.mul_one, Nat.add_zero])

/-- An `[a, 1]` column broadcast to `[a, b]` reads, at `(p, c)`, the column's entry `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.ColumnLayout
-- ==== Proof.LibFoldMaxRows.lean ====
/-
  The greatest entry of a finite table, taken in two steps or in one.

  On the extended reals (any extents `R`, `C`; any floor `b`, for instance `−∞`): the maximum over the floor of
  each row, followed by the maximum over the same floor of the `R` row maxima, is the maximum over the floor of all
  `R · C` entries at once. Both numbers have the same upper bounds — `c` bounds either exactly when `b ≤ c` and
  every entry is `≤ c` — so they are equal; no order of evaluation enters.
-/
import Mathlib.Data.EReal.Basic
import Mathlib.Data.Finset.Fold
import Idealize.ShloMosaic.Lib.ValueIdx

namespace Cert.Lib.FoldMaxRows

open Idealize.ShloMosaic Idealize.ShloMosaic.ValueIdx

/-- The greatest entry of an `[R, C]` table over a floor `b`: by rows and then over the rows' maxima, or over all
    indices at once. -/
theorem fold_max_rows {R C : ℕ} (b : EReal) (S : (⟨2, ![R, C]⟩ : Shape).Idx → EReal) :
    (Finset.univ : Finset (Fin R)).fold max b (fun r => (Finset.univ : Finset (Fin C)).fold max b (fun k => S (ix2 r k)))
      = (Finset.univ : Finset (⟨2, ![R, C]⟩ : Shape).Idx).fold max b S := by
  refine eq_of_forall_ge_iff fun c => ?_
  simp only [Finset.fold_max_le, Finset.mem_univ, forall_true_left]
  constructor
  · rintro ⟨hb, h⟩
    exact ⟨hb, fun i => by rw [eq_ix2 i]; exact (h (i 0)).2 (i 1)⟩
  · rintro ⟨hb, h⟩
    exact ⟨hb, fun r => ⟨hb, fun k => h _⟩⟩

end Cert.Lib.FoldMaxRows
-- ==== Proof.LibScalarBroadcast.lean ====
/-
  A one-entry array broadcast over a matrix, read at an index: a `[1, 1]` array broadcast to `[a, b]` holds its
  single entry at every `(p, c)`, for any element type and any extents (a global quantity — a maximum, a norm —
  kept with both axes and spread back over the array it was taken from).
-/
import Idealize.ShloMosaic.Lib.Pipeline.Value
import Idealize.ShloMosaic.Lib.ValueIdx

namespace Cert.Lib.ScalarBroadcast

open Idealize.ShloMosaic Idealize.ShloMosaic.ValueIdx

/-- A `[1, 1]` array broadcast to `[a, b]` reads, at `(p, c)`, its one entry. -/
theorem broadcastTo_11_ab_apply {α : Type} {a b : ℕ} (v : (⟨2, ![1, 1]⟩ : Shape).Idx → α)
    (h : (⟨2, ![1, 1]⟩ : Shape).Broadcasts ⟨2, ![a, b]⟩) (p : Fin a) (c : Fin b) :
    broadcastTo ⟨2, ![a, b]⟩ v h (ix2 p c) = v (ix2 (0 : Fin 1) (0 : Fin 1)) := by
  refine broadcastTo_apply v h (ix2 p c) (ix2 (0 : Fin 1) (0 : Fin 1)) fun ax => ?_
  match ax with
  | ⟨0, _⟩ => rfl
  | ⟨1, _⟩ => rfl

end Cert.Lib.ScalarBroadcast
-- ==== Proof.Finalize.lean ====
/-
  The finishing kernel's body, read at an index.

  It holds the whole [1024, 512] table `S` and the scale as a [1, 512] row `b`. It takes the maximum of each
  row of `S` over the floor `−∞`, then the maximum of the 1024 row maxima over the same floor — the table's
  peak —, multiplies the peak by the weight, adds it to `0 − S`, and scales column `o` by `b (0, o)`.
  Since `0 − a = −a`, entry `(r, o)` of what it stores is `b (0, o) · (−S (r, o) + peak S · w)`.
-/
import proofs.«167095_j31413390803001_2_alg».proof.Proof.Gen.KernelIdeal.Skeleton
import proofs.«167095_j31413390803001_2_alg».proof.Proof.Table
import proofs.«167095_j31413390803001_2_alg».proof.Proof.LibColumnLayout
import proofs.«167095_j31413390803001_2_alg».proof.Proof.LibFoldMaxRows
import proofs.«167095_j31413390803001_2_alg».proof.Proof.LibScalarBroadcast
import Idealize.ShloMosaic.PureOps.Ideal.Laws
import Idealize.ShloMosaic.Lib.ValueLayout

noncomputable section

namespace Cert.KernelIdeal.Finalize

open Cert.KernelIdeal Cert.KernelIdeal.Gen Idealize.ShloMosaic Idealize.ShloMosaic.ValueIdx
open Cert.ColumnLayout Cert.Rbf Cert.Lib.FoldMaxRows Cert.Lib.ScalarBroadcast

/-- A table negated, shifted by its weighted peak and scaled column by column by a [1, 512] row. -/
def finishRow (S : (⟨2, ![1024, 512]⟩ : Shape).Idx → EReal) (b : (⟨2, ![1, 512]⟩ : Shape).Idx → EReal) :
    (⟨2, ![1024, 512]⟩ : Shape).Idx → EReal :=
  fun i => b (ix2 (0 : Fin 1) (⟨(i 1).val, idx2_lt1 i⟩ : Fin 512)) * (-(S i) + peak S * Ideal.ofBits .f32 0x3F8020C5#32)

/-- The index a row's maximum reads: row `r` with column `k` put back. -/
theorem lift_col (r : Fin 1024) (k : Fin 512) : reduces_S1024x512_S1024.lift (ix1 r) k = ix2 r k := by
  funext a
  apply Fin.ext
  match a with
  | ⟨0, _⟩ => rfl
  | ⟨1, _⟩ => rfl

/-- The index the maximum of the row maxima reads: the one result index with row `r` put back. -/
theorem lift_row (r : Fin 1024) : reduces_S1024x1_S1.lift (ix1 (0 : Fin 1)) r = ix2 r (0 : Fin 1) := by
  funext a
  apply Fin.ext
  match a with
  | ⟨0, _⟩ => rfl
  | ⟨1, _⟩ => rfl

/-- A row's maximum over the floor: the fold of `max` over the row's 512 entries. -/
theorem row_max (S : FVec Ideal S1024x512 .f32) (r : Fin 1024) :
    multiReduction .maximumf [1] S1024 S 0xFF800000#32 reduces_S1024x512_S1024 (.inl rfl) rfl (ix1 r)
      = (Finset.univ : Finset (Fin 512)).fold max (Ideal.ofBits .f32 0xFF800000#32) (fun k => S (ix2 r k)) := by
  refine (Ideal.multiReduction_maximumf_single (φ := .f32) S 0xFF800000#32 reduces_S1024x512_S1024 (.inl rfl) rfl (ix1 r)).trans ?_
  refine Finset.fold_congr fun (k : Fin 512) _ => ?_
  show S (reduces_S1024x512_S1024.lift (ix1 r) k) = S (ix2 r k)
  rw [lift_col r k]

/-- The maximum of a [1024, 1] column over the floor: the fold of `max` over its 1024 entries. -/
theorem col_max (T : FVec Ideal S1024x1 .f32) :
    multiReduction .maximumf [0] S1 T 0xFF800000#32 reduces_S1024x1_S1 (.inl rfl) rfl (ix1 (0 : Fin 1))
      = (Finset.univ : Finset (Fin 1024)).fold max (Ideal.ofBits .f32 0xFF800000#32) (fun r => T (ix2 r (0 : Fin 1))) := by
  refine (Ideal.multiReduction_maximumf_single (φ := .f32) T 0xFF800000#32 reduces_S1024x1_S1 (.inl rfl) rfl (ix1 (0 : Fin 1))).trans ?_
  refine Finset.fold_congr fun (r : Fin 1024) _ => ?_
  show T (reduces_S1024x1_S1.lift (ix1 (0 : Fin 1)) r) = T (ix2 r (0 : Fin 1))
  rw [lift_row r]

/-- The two maxima in turn are the table's peak. -/
theorem peak_by_rows (S : FVec Ideal S1024x512 .f32) :
    multiReduction .maximumf [0] S1
        (shapeCast S1024x1 (multiReduction .maximumf [1] S1024 S 0xFF800000#32 reduces_S1024x512_S1024 (.inl rfl) rfl)
          shapeCasts_S1024_S1024x1)
        0xFF800000#32 reduces_S1024x1_S1 (.inl rfl) rfl (ix1 (0 : Fin 1)) = peak S := by
  refine (col_max _).trans ?_
  unfold peak
  rw [← fold_max_rows]
  refine Finset.fold_congr fun (r : Fin 1024) _ => ?_
  exact (shapeCast_a_a1_apply _ shapeCasts_S1024_S1024x1 r (0 : Fin 1)).trans (row_max S r)

/-- The pointwise tail at `(r, o)`, over any [1, 1] value `g` in the peak's place. -/
theorem finish_apply (S : FVec Ideal S1024x512 .f32) (b : FVec Ideal S1x512 .f32) (g : FVec Ideal S1x1 .f32)
    (r : Fin 1024) (o : Fin 512) :
    mulf (broadcastTo S1024x512 b broadcasts_S1x512_S1024x512)
        (addf (subf (broadcast S1024x512 (FloatOps.ofBits .f32 0x00000000#32)) S)
          (broadcastTo S1024x512 (mulf g (broadcast S1x1 (FloatOps.ofBits .f32 0x3F8020C5#32))) broadcasts_S1x1_S1024x512))
        (ix2 r o)
      = b (ix2 (0 : Fin 1) o) * (-(S (ix2 r o)) + g (ix2 (0 : Fin 1) (0 : Fin 1)) * Ideal.ofBits .f32 0x3F8020C5#32) := by
  refine congrArg₂ (· * ·) (broadcastTo_1b_ab_apply b broadcasts_S1x512_S1024x512 r o) (congrArg₂ (· + ·) ?_ ?_)
  · exact zero_word_sub (S (ix2 r o))
  · exact broadcastTo_11_ab_apply _ broadcasts_S1x1_S1024x512 r o

/-- THE BODY's stored value at `(r, o)`. -/
theorem payload_apply (S : FVec Ideal S1024x512 .f32) (b : FVec Ideal S1x512 .f32) (r : Fin 1024) (o : Fin 512) :
    k1_pay1 (F := Ideal) S b (ix2 r o) = finishRow S b (ix2 r o) := by
  unfold k1_pay1
  rw [shapeCast_self S, shapeCast_self b]
  refine (finish_apply S b _ r o).trans ?_
  unfold finishRow
  rw [shapeCast_a_a1_apply _ shapeCasts_S1_S1x1 (0 : Fin 1) (0 : Fin 1), peak_by_rows S]

end Cert.KernelIdeal.Finalize

end
-- ==== Proof.FinalizeArray.lean ====
/-
  What the finishing kernel's region leaves in its output array.

  The grid has one point, and each window's block is its whole array. So the body is run once on the table and
  the scale row as the region finds them, and the array it writes back is the table negated, shifted by its
  weighted peak and scaled column by column.
-/
import proofs.«167095_j31413390803001_2_alg».proof.Proof.Gen.KernelIdeal.Frame
import proofs.«167095_j31413390803001_2_alg».proof.Proof.Finalize
import Idealize.ShloMosaic.Lib.Pipeline.Value

set_option maxRecDepth 16384

noncomputable section

namespace Cert.KernelIdeal.Finalize

open Cert.KernelIdeal Cert.KernelIdeal.Gen Idealize.ShloMosaic Idealize.ShloMosaic.TcCoe Idealize.ShloMosaic.ValueIdx
open Idealize.SL.Sem Cert.Rbf
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- Every window's block index is zero at the one grid point. -/
theorem idx_facts : ∀ t : Fin cfg1.N, win1_0.index t (0 : Fin 2) = 0 ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0 :=
  (by decide +kernel : ∀ t : Fin grid1.N, _)

/-- The table's block is the table. -/
theorem table_block (c : Dev nD) (t : Fin cfg1.N) : (iblk1 V c 0 t : S1024x512.Idx → EReal) = V c main_v0 := by
  obtain ⟨e0, e1, -, -, -, -⟩ := idx_facts t
  funext y
  show V c main_v0 (((cfg1.win 0).blk t).view.emb y) = V c main_v0 y
  refine congrArg (V c main_v0) ?_
  funext a
  apply Fin.ext
  match a with
  | ⟨0, _⟩ => show win1_0.index t (0 : Fin 2) * 1024 + 1 * (y 0).val = (y 0).val; omega
  | ⟨1, _⟩ => show win1_0.index t (1 : Fin 2) * 512 + 1 * (y 1).val = (y 1).val; omega

/-- The scale row's block is the scale row. -/
theorem scale_block (c : Dev nD) (t : Fin cfg1.N) : (iblk1 V c 1 t : S1x512.Idx → EReal) = V c main_v1 := by
  obtain ⟨-, -, e2, e3, -, -⟩ := idx_facts t
  funext y
  show V c main_v1 (((cfg1.win 1).blk t).view.emb y) = V c main_v1 y
  refine congrArg (V c main_v1) ?_
  funext a
  apply Fin.ext
  match a with
  | ⟨0, _⟩ => show win1_1.index t (0 : Fin 2) * 1 + 1 * (y 0).val = (y 0).val; omega
  | ⟨1, _⟩ => show win1_1.index t (1 : Fin 2) * 512 + 1 * (y 1).val = (y 1).val; omega

/-- An index of the output's block is that index of the array. -/
theorem out_block_emb (t : Fin cfg1.N) (j : S1024x512.Idx) : ((cfg1.win 2).blk t).view.emb j = j := by
  obtain ⟨-, -, -, -, e4, e5⟩ := idx_facts t
  funext a
  apply Fin.ext
  match a with
  | ⟨0, _⟩ => show win1_2.index t (0 : Fin 2) * 1024 + 1 * (j 0).val = (j 0).val; omega
  | ⟨1, _⟩ => show win1_2.index t (1 : Fin 2) * 512 + 1 * (j 1).val = (j 1).val; omega

/-- WHAT THE POINT WRITES BACK is the finished table of the arrays the region finds. -/
theorem flushed_eq (c : Dev nD) (t : Fin cfg1.N) :
    (dat1 (F := Ideal) V c).flushed 2 t
      = ((cfg1.win 2).blk t).view.read (Elt Ideal) (finishRow (V c main_v0) (V c main_v1)) := by
  show (cfg1.win 2).cut (grid1.coords t) ((dat1 V c).after 2 t) = _
  rw [after1_2]
  unfold out1_2
  rw [View.canon_unit_zero hz]
  simp only [View.ld_unit_zero (S := S1024x512) hz, View.ld_unit_zero (S := S1x512) hz]
  funext j
  show k1_pay1 (iblk1 V c 0 t) (iblk1 V c 1 t) j = finishRow (V c main_v0) (V c main_v1) (((cfg1.win 2).blk t).view.emb j)
  rw [out_block_emb t j, table_block V c t, scale_block V c t]
  obtain ⟨r, o, rfl⟩ : ∃ (r : Fin 1024) (o : Fin 512), j = ix2 r o := ⟨j 0, j 1, eq_ix2 j⟩
  exact payload_apply _ _ r o

/-- The one block is the whole array. -/
theorem covered (i : S1024x512.Idx) :
    ∃ t : Fin cfg1.N, (cfg1.win 2).flush t = true ∧ i ∈ ((cfg1.win 2).blk t).view.set := by
  have hN : 0 < cfg1.N := by rw [show cfg1.N = grid1.N from rfl, N_1]; exact Nat.one_pos
  refine ⟨⟨0, hN⟩, flush1_2 _, ?_⟩
  have h := ((cfg1.win 2).blk ⟨0, hN⟩).view.emb_mem_set i
  rwa [out_block_emb] at h

/-- THE ARRAY after the region. -/
theorem result_eq (c : Dev nD) :
    (dat1 (F := Ideal) V c).arrAt 2 cfg1.N = finishRow (V c main_v0) (V c main_v1) :=
  (dat1 V c).arrAt_eq_of_cover 2 _ (fun t _ => flushed_eq V c t) covered

end Cert.KernelIdeal.Finalize

end
-- ==== Proof.KernelRun.lean ====
/-
  The idealized kernel's run with its result named.

  @main is the distance region, one host reshape of the scale vector to a [1, 512] row, and the finishing region.
  Every weakly fair execution terminates with the result array at what the finishing region writes back, which
  is the finished table of (a) the distance region's output — the distance table of `x` and the centers as
  launched — and (b) the scale vector as launched, laid as a row. Read index by index that is the
  specification's function of the three argument arrays.
-/
import proofs.«167095_j31413390803001_2_alg».proof.Proof.CdistArray
import proofs.«167095_j31413390803001_2_alg».proof.Proof.FinalizeArray
import Idealize.ShloMosaic.Lib.StableHlo.Run
import Idealize.ShloMosaic.Lib.ValueLayout

set_option maxRecDepth 16384

noncomputable section

namespace Cert.KernelIdeal.Named

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.StableHlo
open Idealize.ShloMosaic.Pipeline (Dat Cfg Window BodyObligation cellOf)
open Cert.Rbf

local notation "𝕄" => MT nD τ sig Unit (Elt Ideal) ℕ (UR sig nD τ) ℕ

variable (m : (ℓ : Loc nD τ sig) → Buf (Elt Ideal) ℓ) (ρ : Dev nD → PrngReg)

set_option backward.isDefEq.respectTransparency.types false in
/-- THE RUN, its result named: every weakly fair execution of @main terminates, nothing faulting, with the result
    array at the last boundary's contents and the argument arrays as launched. -/
theorem run_named : θ_run defs (onTc (τ := τ) (main (F := Ideal))) ⟨m, fun _ => 0, ρ⟩ (fun r => ∀ c : Dev nD,
      r.2.mem ((c.tc : Thread nD τ).loc main_v2) = W3 m ρ c (Proc.devRef .tc main_v2)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  Pipeline.θ_run_regions_kit (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h c =>
      ⟨h c _ (mem_uc main_v2 (by decide)),
       (h c _ (mem_uc main_arg0 (by decide))).trans (W3_main_arg0 m ρ c),
       (h c _ (mem_uc main_arg1 (by decide))).trans (W3_main_arg1 m ρ c),
       (h c _ (mem_uc main_arg2 (by decide))).trans (W3_main_arg2 m ρ c)⟩)

/-- The table the finishing region finds is what the distance region left: the host reshape between them
    does not write it. -/
theorem table_found (c : Dev nD) :
    (V2 m ρ c main_v0 : S1024x512.Idx → EReal)
      = simG (m ((c : Thread nD τ).loc main_arg0)) (m ((c : Thread nD τ).loc main_arg1)) :=
  calc (V2 m ρ c main_v0 : S1024x512.Idx → EReal)
    _ = W1 m ρ c (Proc.devRef .tc main_v0) := StableHlo.after_of_forall_not_mem (b := Proc.devRef .tc main_v0) _ _ (List.forall_iff_forall_mem.mp (by
          simp only [hostOps1, List.Forall, StableHlo.reshape_writes, Finset.mem_singleton]
          exact StableHlo.devRef_ne_of_ne (by decide)))
    _ = (dat0 (V0 m ρ) c).arrAt 2 cfg0.N := W1_arr m ρ c 2
    _ = simG (V0 m ρ c main_arg0) (V0 m ρ c main_arg1) := Cdist.table_eq (V0 m ρ) c
    _ = _ := rfl

/-- The scale row the finishing region finds is the scale vector as launched, laid as a [1, 512] row. -/
theorem scale_found (c : Dev nD) :
    (V2 m ρ c main_v1 : S1x512.Idx → EReal)
      = shapeCast S1x512 (m ((c : Thread nD τ).loc main_arg2)) shapeCasts_S512_S1x512 := by
  have e : (V2 m ρ c main_v1 : S1x512.Idx → EReal)
      = shapeCast S1x512 (W1 m ρ c (Proc.devRef .tc main_arg2)) shapeCasts_S512_S1x512 := by
    show StableHlo.after hostOps1 (W1 m ρ c) (Proc.devRef .tc main_v1) = _
    after_results
    rfl
  rw [e, W1_of_ne m ρ c main_arg2 (by decide)]

/-- The finished table over a scale vector laid as a row is the finished table over the vector. -/
theorem finishRow_reshape (S : S1024x512.Idx → EReal) (B : S512.Idx → EReal) :
    Finalize.finishRow S (shapeCast S1x512 B shapeCasts_S512_S1x512) = finish S B := by
  funext i
  unfold Finalize.finishRow finish
  rw [shapeCast_a_1a_apply B shapeCasts_S512_S1x512 (0 : Fin 1)]

/-- THE RESULT ARRAY at the last boundary is the specification's function of the arguments as launched. -/
theorem result_value (c : Dev nD) :
    (W3 m ρ c (Proc.devRef .tc main_v2) : S1024x512.Idx → EReal)
      = outG (m ((c : Thread nD τ).loc main_arg0)) (m ((c : Thread nD τ).loc main_arg1)) (m ((c : Thread nD τ).loc main_arg2)) :=
  calc (W3 m ρ c (Proc.devRef .tc main_v2) : S1024x512.Idx → EReal)
    _ = (dat1 (V2 m ρ) c).arrAt 2 cfg1.N := W3_arr m ρ c 2
    _ = Finalize.finishRow (V2 m ρ c main_v0) (V2 m ρ c main_v1) := Finalize.result_eq (V2 m ρ) c
    _ = _ := by rw [table_found m ρ c, scale_found m ρ c, finishRow_reshape]; rfl

/-- THE RUN, read: the result array ends at the specification's function of the argument arrays, which end as launched. -/
theorem run : θ_run defs (onTc (τ := τ) (main (F := Ideal))) ⟨m, fun _ => 0, ρ⟩ (fun r => ∀ c : Dev nD,
      r.2.mem ((c.tc : Thread nD τ).loc main_v2)
        = outG (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c => ⟨(h c).1.trans (result_value m ρ c), (h c).2⟩) (run_named m ρ)

end Cert.KernelIdeal.Named

end
-- ==== Proof.Reference.lean ====
/-
  The reference computes the specification.

  Its program broadcasts `x` and the centers to [1024, 512, 512], subtracts, takes absolute values and sums the
  last axis from zero: the distance table. It negates the table, takes the table's maximum over both axes from
  `−∞` — the peak —, multiplies by the weight, broadcasts, adds, and scales column `o` by `β o`.
-/
import proofs.«167095_j31413390803001_2_alg».proof.Proof.Gen.ReferenceIdeal.Read
import proofs.«167095_j31413390803001_2_alg».proof.Proof.Table
import Idealize.ShloMosaic.PureOps.Reduce

noncomputable section

namespace Cert.ReferenceIdeal.Spec

open Cert.ReferenceIdeal Cert.ReferenceIdeal.Gen Cert.ReferenceIdeal.Read
open Idealize.ShloMosaic Idealize.ShloMosaic.ValueIdx Cert.Rbf

/-- The summed stage is the distance table. -/
theorem sim_stage (x0 : S1024x512.Idx → EReal) (x1 : S512x512.Idx → EReal) :
    val_main_v6 (F := Ideal) x0 x1 = simG x0 x1 := by
  funext i
  rw [val_main_v6_apply]
  unfold simG
  rw [show (val_main_cst (F := Ideal)) (Shape.Idx.first h_S_) = Ideal.ofBits .f32 0x00000000#32 from rfl,
    Ideal.ofBits_zero_f32, zero_add]
  refine Finset.sum_congr rfl fun k _ => ?_
  rw [val_main_v5_apply, val_main_v4_apply, val_main_v2_apply, val_main_v0_apply, val_main_v3_apply, val_main_v1_apply]
  unfold gap
  refine congrArg (FloatOps.absf (F := Ideal) (φ := .f32)) (congrArg₂ (· - ·) (congrArg x0 ?_) (congrArg x1 ?_))
  · funext a
    apply Fin.ext
    match a with
    | ⟨0, _⟩ => rfl
    | ⟨1, _⟩ => rfl
  · funext a
    apply Fin.ext
    match a with
    | ⟨0, _⟩ => rfl
    | ⟨1, _⟩ => rfl

instance : Subsingleton S_.Idx := ⟨fun a b => funext fun d => d.elim0⟩

/-- The maximum over both axes is the table's peak. -/
theorem peak_stage (x0 : S1024x512.Idx → EReal) (x1 : S512x512.Idx → EReal) (j : S_.Idx) :
    val_main_v8 (F := Ideal) x0 x1 j = peak (simG x0 x1) := by
  unfold val_main_v8
  rw [sim_stage, Host.reduce_eq_fold]
  unfold peak
  rw [Finset.filter_true_of_mem (fun i _ => Subsingleton.elim _ _)]
  rfl

/-- THE REFERENCE's result stage is the specification's function of the arguments. -/
theorem result_stage (x0 : S1024x512.Idx → EReal) (x1 : S512x512.Idx → EReal) (x2 : S512.Idx → EReal) :
    val_main_v14 (F := Ideal) x0 x1 x2 = outG x0 x1 x2 := by
  funext i
  rw [val_main_v14_apply, val_main_v13_apply, val_main_v12_apply, val_main_v11_apply, val_main_v7_apply,
    val_main_v10_apply, val_main_v9_apply, peak_stage, sim_stage]
  unfold outG finish
  refine congrArg₂ (· * ·) (congrArg x2 ?_) rfl
  funext a
  match a with
  | ⟨0, _⟩ => rfl

end Cert.ReferenceIdeal.Spec

end
-- ==== Proof.lean ====
/-
  The kernel computes a radial-basis layer's L1 response: for `x : [1024, 512]`, centers `c : [512, 512]` and
  `β : [512]`, the distance table `sim (r, o) = ∑ k, |x (r, k) − c (o, k)|`, its greatest entry `peak`, and the
  result `out (r, o) = β o · (−sim (r, o) + peak · w)` with `w` the weight's word, the same on both sides.

  The kernel is two regions. The first fills the table block by block, 128 × 128 entries at a time, each entry's
  512 gaps summed in four chunks of 128 lanes: a lane accumulator started at zero takes one gap from each chunk,
  and the 128 accumulators are then summed. The reference sums the 512 gaps in order from zero. The extended
  reals are a commutative monoid under `+`, so the two groupings are one number, with no finiteness needed.
  The second region takes each row's maximum and then the maximum of the row maxima, both over the floor `−∞`;
  the reference takes one maximum over both axes from `−∞`: a number is an upper bound of the one exactly when it
  is an upper bound of the other, so they are equal. It writes `0 − sim` where the reference negates, and
  `0 − a = −a`. Between the regions the host lays `β` as a [1, 512] row, which keeps entry `o` at `(0, o)`.

  So both programs end with the result array at one function of the argument arrays (`Cert.Rbf.outG`): the
  kernel by its run with the result named, the reference by its run read stage by stage. The idealization
  rewrote no operation, so it preserves the kernel trivially.
-/
import proofs.«167095_j31413390803001_2_alg».proof.Defs
import proofs.«167095_j31413390803001_2_alg».proof.Proof.Gen.Kernel
import proofs.«167095_j31413390803001_2_alg».proof.Proof.Gen.Kernel.Skeleton
import proofs.«167095_j31413390803001_2_alg».proof.Proof.Gen.Kernel.Launch
import proofs.«167095_j31413390803001_2_alg».proof.Proof.Gen.Kernel.Points
import proofs.«167095_j31413390803001_2_alg».proof.Proof.Gen.Kernel.Frame
import proofs.«167095_j31413390803001_2_alg».proof.Proof.Gen.KernelIdeal
import proofs.«167095_j31413390803001_2_alg».proof.Proof.Gen.KernelIdeal.Skeleton
import proofs.«167095_j31413390803001_2_alg».proof.Proof.Gen.KernelIdeal.Launch
import proofs.«167095_j31413390803001_2_alg».proof.Proof.Gen.KernelIdeal.Points
import proofs.«167095_j31413390803001_2_alg».proof.Proof.Gen.KernelIdeal.Frame
import proofs.«167095_j31413390803001_2_alg».proof.Proof.Gen.ReferenceIdeal
import proofs.«167095_j31413390803001_2_alg».proof.Proof.Gen.ReferenceIdeal.Run
import proofs.«167095_j31413390803001_2_alg».proof.Proof.Gen.ReferenceIdeal.Read
import proofs.«167095_j31413390803001_2_alg».proof.Proof.Gen.Pre_finite_inputs
import proofs.«167095_j31413390803001_2_alg».proof.Proof.KernelRun
import proofs.«167095_j31413390803001_2_alg».proof.Proof.Reference
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- No operation was rewritten. -/
theorem preserves : Cert.preserves_Kernel_KernelIdeal := trivial

/-- From memories that agree on the arguments both programs end with the result array at the specification's
    function of the arguments. -/
theorem algebraic : Cert.algebraic_KernelIdeal_ReferenceIdeal := by
  intro m ρ m' ρ' _ hagree
  refine ⟨fun c => Cert.Rbf.outG
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    Cert.KernelIdeal.Named.run m ρ, ?_⟩
  refine (θ_run Cert.ReferenceIdeal.defs _ _).mono (fun _ h c => ⟨(h c).1.trans ?_, (h c).2⟩)
    (Cert.ReferenceIdeal.Value.run (F := Ideal) m' ρ')
  refine ((Cert.ReferenceIdeal.Read.val_main_v14_eq _ _ _).trans (Cert.ReferenceIdeal.Spec.result_stage _ _ _)).trans ?_
  rw [(hagree c).1, (hagree c).2.1, (hagree c).2.2]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
